-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4096x4096 .f32) (main_arg1 : FVec F S4096x64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S4096x4096 : Shape := ⟨2, ![4096, 4096]⟩
abbrev S4096x64 : Shape := ⟨2, ![4096, 64]⟩
abbrev S2048x64 : Shape := ⟨2, ![2048, 64]⟩
abbrev S512x4096 : Shape := ⟨2, ![512, 4096]⟩
abbrev S512x64 : Shape := ⟨2, ![512, 64]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S2048x64, .f32⟩
  | .hbm, ⟨3, _⟩ => ⟨S2048x64, .f32⟩
  | .hbm, ⟨4, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  inb_S512x64_S512x64_0_0 : ∀ a, (![0, 0] : Fin 2 → Nat) a + S512x64.size a ≤ S512x64.size a
  h_S512x64 : 0 < S512x64.numel
  concatenates_S2048x64_S2048x64_S4096x64_d0 : Shape.Concatenates [S2048x64, S2048x64] S4096x64 0
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S2048x64.size a
  hwx0_3 : ∀ i : grid0.Coords, EltTy.bits .f32 = 32 ∨ (Rect.block (s := S2048x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S2048x64.size a
  hwx0_4 : ∀ i : grid0.Coords, EltTy.bits .f32 = 32 ∨ (Rect.block (s := S2048x64) S512x64.size (cc0_transform_4 i) (hinb0_4 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x64 : Shape := ⟨2, ![4096, 64]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.BitsBody.lean ====
/-
  The kernel region, point by point.

  The grid has four points. At point t the region stages three input blocks — rows [512 t, 512 t + 512) of the
  4096 × 4096 matrix (first window), rows [512 (t + 4), 512 (t + 4) + 512) of the SAME matrix (second window) and the
  whole 4096 × 64 matrix (third window) — and two 512 × 64 output blocks, rows [512 t, 512 t + 512) of each of the two
  2048 × 64 results. The body multiplies each row block by the whole right factor, starting from a zero accumulator,
  and stores each product over its whole output block.

  This module states what the body leaves in each output block as a function of the input blocks (the one store
  covers the block), proves the body's triple, and fixes the data of the region: the two windows on the one matrix
  hold it at the two halves of the full share, each input block is left as found, each output block is the product.
-/
import proofs.«157497_g85925115724063_cont_9to1c4b_375_28_alg».proof.Proof.Gen.Kernel.Launch
import proofs.«157497_g85925115724063_cont_9to1c4b_375_28_alg».proof.Proof.Gen.Kernel.Skeleton
import proofs.«157497_g85925115724063_cont_9to1c4b_375_28_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Nothing runs before the region: every buffer is as launched. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched its block index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole block -/

abbrev rL : Rect S512x4096 := Rect.unit (s := S512x4096) ![0, 0] S512x4096.size Facts₀.inb_S512x4096_S512x4096_0_0
abbrev rR : Rect S4096x64 := Rect.unit (s := S4096x64) ![0, 0] S4096x64.size Facts₀.inb_S4096x64_S4096x64_0_0
abbrev rO : Rect S512x64 := Rect.unit (s := S512x64) ![0, 0] S512x64.size Facts₀.inb_S512x64_S512x64_0_0

/-- The first output block after the body: the product of the first row block with the right factor. -/
def outA (x0 : Vec F S512x4096 .f32) (x2 : Vec F S4096x64 .f32) : Vec F S512x64 .f32 :=
  View.canon [⟨rO, k0_pay1 (View.ld x0 rL) (View.ld x2 rR)⟩]

/-- The second output block after the body: the product of the second row block with the right factor. -/
def outB (x1 : Vec F S512x4096 .f32) (x2 : Vec F S4096x64 .f32) : Vec F S512x64 .f32 :=
  View.canon [⟨rO, k0_pay2 (View.ld x1 rL) (View.ld x2 rR)⟩]

/-- The one store covers the block. -/
theorem coverO (p0 : Vec F S512x64 .f32) (y : S512x64.Idx) :
    ∃ pc ∈ ([⟨rO, p0⟩] : List (View.Piece (Elt F) S512x64 .f32)), y ∈ pc.1.set :=
  View.cover_of_tiled [⟨rO, p0⟩] S512x64.size (by rfl) y

/-! ## The body's triple -/

set_option maxHeartbeats 1000000 in
/-- On whole staging buffers, the inputs at `x0 x1 x2` and the outputs at anything, the body runs to the inputs as
    they were and the outputs at the two products. -/
theorem sound_kernel (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S4096x64 .f32) (harg3 : arg3.IsWhole) (arg4 : Memref sig .tc .vmem S512x64 .f32) (harg4 : arg4.IsWhole)
    (arg5 : Memref sig .tc .vmem S512x64 .f32) (harg5 : arg5.IsWhole)
    (x0 : Vec F S512x4096 .f32) (x1 : Vec F S512x4096 .f32) (x2 : Vec F S4096x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outA x0 x2) ∗ owns (c : Thread nD τ) arg5 fullShare (outB x1 x2)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

end Cert.Kernel.Region

end
-- ==== Proof.BitsData.lean ====
/-
  The data of the region and the body's obligation at every grid point.

  The matrix handed to the first two windows is one array: the first window holds it at the left half of the full
  share and the second at the right half, so that both may read it and neither may write it; the right factor and
  the two results are held outright. After the body at point t each input's staging buffer holds the block it was
  handed and each output's holds the product of its row block with the right factor. Between points the region
  keeps only the scoped buffers no window stages (there are none here).
-/
import proofs.«157497_g85925115724063_cont_9to1c4b_375_28_alg».proof.Proof.BitsBody

set_option maxRecDepth 16384

noncomputable section

namespace Cert.Kernel.Region

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outA (iblk m c 0 t) (iblk m c 2 t)
    | ⟨4, _⟩ => outB (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outA (iblk m c 0 t) (iblk m c 2 t) := by dsimp only [dats]
theorem after4 (c : Dev nD) (t : Fin cfg0.N) : (dats m 0 c).after 4 t = outB (iblk m c 1 t) (iblk m c 2 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's triple applies; what the region keeps
    between points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The program around the region: the region, then the concatenation of the two results -/

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

end Cert.Kernel.Region

end
-- ==== Proof.BitsLaunch.lean ====
/-
  The run of the whole program at any float instance: the region, then the concatenation of its two results.

  At entry the matrix both row windows read is split along the share, half to each; the right factor and the two
  results go to their windows whole; the concatenation's target bypasses the region. At exit every window's array
  holds what the write-backs made of it, and the one host operation after the region reads the two results and
  writes their concatenation along the rows into the target. The final state is read window by window and at the
  target.
-/
import proofs.«157497_g85925115724063_cont_9to1c4b_375_28_alg».proof.Proof.BitsData

set_option maxRecDepth 16384

noncomputable section

namespace Cert.Kernel.Region

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP scopedRest)

/-- The concatenation of the two results along the rows. -/
def cat (a b : (⟨S2048x64, .f32⟩ : BufTy).Contents (Elt F)) : (⟨S4096x64, .f32⟩ : BufTy).Contents (Elt F) :=
  concatenate S4096x64 0 [⟨S2048x64, a⟩, ⟨S2048x64, b⟩] Facts₀.concatenates_S2048x64_S2048x64_S4096x64_d0

/-! ## The windows' arrays, one by one -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- A window's array is a whole buffer: held over all its elements, at the window's share. -/
theorem arr_pt (c : Dev nD) (w : Fin cfg0.W) (q : PosShare TreeShare) (hq : (dats m 0 c).share w = q)
    (f : Buf (Elt F) ((cfg0.win w).arr.view.loc (c.tc : Thread nD τ))) :
    (((cfg0.win w).arr.view.loc (c.tc : Thread nD τ)) ↦[(cfg0.win w).arr.view.set]{(dats m 0 c).share w} f : sProp 𝕄)
      = (((c.tc : Thread nD τ).loc (Pipeline.arrRef spec0 w)) ↦{q} f) := by
  rw [hq]
  show ((((spec0 w).arr.view.loc (c.tc : Thread nD τ)) ↦[(spec0 w).arr.view.set]{q} f : sProp 𝕄)) = _
  rw [(arr_whole0 w).set_eq_univ]

/-- The five windows' arrays: the matrix twice, at the two halves of the full share; the right factor and the two
    results at the full share. -/
theorem arrays_open (c : Dev nD) (Fn : (w : Fin cfg0.W) → Buf (Elt F) ((cfg0.win w).arr.view.loc (c.tc : Thread nD τ))) :
    ((dats m 0 c).arrays Fn : sProp 𝕄) = iprop(
      (((c.tc : Thread nD τ).loc main_arg0) ↦{fullShare.left} Fn 0) ∗ (((c.tc : Thread nD τ).loc main_arg0) ↦{fullShare.right} Fn 1)
      ∗ (((c.tc : Thread nD τ).loc main_arg1) ↦{fullShare} Fn 2) ∗ (((c.tc : Thread nD τ).loc main_v0_0) ↦{fullShare} Fn 3)
      ∗ (((c.tc : Thread nD τ).loc main_v0_1) ↦{fullShare} Fn 4)) := by
  unfold Dat.arrays
  rw [bigSep_W0]
  beta_reduce
  rw [arr_pt m c 0 _ (share0 m c), arr_pt m c 1 _ (share1 m c), arr_pt m c 2 _ (share2 m c), arr_pt m c 3 _ (share3 m c), arr_pt m c 4 _ (share4 m c)]

/-! ## Entry: the four distinct buffers behind the five windows -/

theorem entry_split (c : Dev nD) :
    (arrBufs spec0 c (V m c) : sProp 𝕄) ⊢ (dats m 0 c).arrays ((dats m 0 c).arrAt · 0) := by
  have e : (arrBufs spec0 c (V m c) : sProp 𝕄) = iprop((((c.tc : Thread nD τ).loc main_arg0) ↦{fullShare} V m c main_arg0)
      ∗ (((c.tc : Thread nD τ).loc main_arg1) ↦{fullShare} V m c main_arg1) ∗ (((c.tc : Thread nD τ).loc main_v0_0) ↦{fullShare} V m c main_v0_0)
      ∗ (((c.tc : Thread nD τ).loc main_v0_1) ↦{fullShare} V m c main_v0_1)) := by
    unfold Pipeline.arrBufs
    exact bigSep_eq_bigSepL_of_eq [main_arg0, main_arg1, main_v0_0, main_v0_1] (by decide) (by decide) _
  rw [arrays_open, e]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-! ## Exit: the concatenation of the two results -/

/-- The three buffers the concatenation touches. -/
abbrev tailSet : Finset (DevRef τ sig) := {Proc.devRef .tc main_v0_0, Proc.devRef .tc main_v0_1, Proc.devRef .tc main_v1}

theorem held_tail (c : Dev nD) (Wv : Valuation τ sig (Elt F)) :
    (StableHlo.held (c.tc : Thread nD τ) tailSet Wv : sProp 𝕄)
      = iprop((((c.tc : Thread nD τ).loc main_v0_0) ↦{fullShare} Wv (Proc.devRef .tc main_v0_0))
          ∗ (((c.tc : Thread nD τ).loc main_v0_1) ↦{fullShare} Wv (Proc.devRef .tc main_v0_1))
          ∗ (((c.tc : Thread nD τ).loc main_v1) ↦{fullShare} Wv (Proc.devRef .tc main_v1))) := by
  unfold StableHlo.held tailSet
  rw [bigSep_insert (by decide), bigSep_insert (by decide), bigSep_singleton]
  rfl

/-- Every buffer at the region's exit: the windows' arrays after the write-backs, the rest as launched. -/
def exitVal (c : Dev nD) : Valuation τ sig (Elt F) :=
  Pipeline.withArrays spec0 c (V0 m c) fun w => (dats m 0 c).arrAt w cfg0.N

theorem exitVal_out (c : Dev nD) (w : Fin 5) (b : Ref sig .tc) (hb : Pipeline.arrRef spec0 w = b)
    (huniq : ∀ w' : Fin 5, Pipeline.arrRef spec0 w' = b → w' = w) :
    exitVal m c (Proc.devRef .tc (Pipeline.arrRef spec0 w)) = (dats m 0 c).arrAt w cfg0.N := by
  unfold exitVal Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 5) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  obtain rfl : w' = w := huniq w' ((Proc.devRef_injective _ e).trans hb)
  rfl

theorem exitVal_3 (c : Dev nD) : exitVal m c (Proc.devRef .tc main_v0_0) = (dats m 0 c).arrAt 3 cfg0.N :=
  exitVal_out m c 3 main_v0_0 rfl (by decide)
theorem exitVal_4 (c : Dev nD) : exitVal m c (Proc.devRef .tc main_v0_1) = (dats m 0 c).arrAt 4 cfg0.N :=
  exitVal_out m c 4 main_v0_1 rfl (by decide)
theorem exitVal_target (c : Dev nD) : exitVal m c (Proc.devRef .tc main_v1) = V m c main_v1 :=
  Pipeline.withArrays_of_ne _ c (V0 m c) _ main_v1 (by decide)

theorem after_tail_ne (Wv : Valuation τ sig (Elt F)) (r : Ref sig .tc) (h : r ≠ main_v1) :
    StableHlo.after ([hostOps1 (F := F)].flatten) Wv (Proc.devRef .tc r) = Wv (Proc.devRef .tc r) := by
  simp only [List.flatten_cons, List.flatten_nil, List.append_nil, hostOps1, StableHlo.after_cons, StableHlo.after_nil]
  exact StableHlo.binary_result_ne' _ _ _ _ Wv h

theorem after_tail_target (Wv : Valuation τ sig (Elt F)) :
    StableHlo.after ([hostOps1 (F := F)].flatten) Wv (Proc.devRef .tc main_v1)
      = cat (Wv (Proc.devRef .tc main_v0_0)) (Wv (Proc.devRef .tc main_v0_1)) := by
  simp only [List.flatten_cons, List.flatten_nil, List.append_nil, hostOps1, StableHlo.after_cons, StableHlo.after_nil]
  exact StableHlo.binary_result' _ _ _ _ Wv

theorem tail_sub : ∀ ops ∈ ([hostOps1] : List (List (HloOp τ sig (Elt F)))), ∀ op ∈ ops, op.bufs ⊆ tailSet := by
  intro ops hops op hop
  simp only [List.mem_singleton] at hops; subst hops
  simp only [hostOps1, List.mem_singleton] at hop; subst hop
  exact Finset.Subset.refl _

theorem tail_fresh : ∀ ops ∈ ([hostOps1] : List (List (HloOp τ sig (Elt F)))), ∀ op ∈ ops, op.fresh = ∅ := by
  intro ops hops op hop
  simp only [List.mem_singleton] at hops; subst hops
  simp only [hostOps1, List.mem_singleton] at hop; subst hop
  rfl

/-! ## The run -/

set_option backward.isDefEq.respectTransparency.types false in
/-- From any memory with zero counters every weakly fair execution terminates; at the end every window's array
    holds what the write-backs made of it and the target holds the concatenation of the two results. -/
theorem run_region :
    θ_run defs (onTc (τ := τ) (main (F := F))) (s₀ m ρ) (fun r => ∀ c : Dev nD,
      (∀ w, r.2.mem (((cfgs 0).spec w).arr.view.loc (c.tc : Thread nD τ)) = (dats m 0 c).arrAt w cfg0.N)
      ∧ r.2.mem ((c.tc : Thread nD τ).loc main_v1) = cat ((dats m 0 c).arrAt 3 cfg0.N) ((dats m 0 c).arrAt 4 cfg0.N)) := by
  refine Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj))
    (hu₀ := .rfl)
    (V := V m) (hmain := hmain m Variants.none)
    (hsplit := entry_split m)
    (hpf := fun _ k => k.elim0)
    (X := fun _ => iprop(emp)) (Y := fun _ => iprop(emp))
    (Z := fun c => iprop(((c.tc : Thread nD τ).loc main_v1) ↦{fullShare} V m c main_v1))
    (Z' := fun c => iprop(((c.tc : Thread nD τ).loc main_v1) ↦{fullShare} cat ((dats m 0 c).arrAt 3 cfg0.N) ((dats m 0 c).arrAt 4 cfg0.N)))
    (hX := ?hX) (hin := ?hin) (hout := ?hout) (htail := ?htail)
    (QY := fun c s => s.mem ((c.tc : Thread nD τ).loc main_v1) = cat ((dats m 0 c).arrAt 3 cfg0.N) ((dats m 0 c).arrAt 4 cfg0.N))
    (hY := ?hY)
    (hQ := fun s h c => ⟨(h c).1, (h c).2.2⟩)
  case hX =>
    intro c
    show (unscopedRestP Pipeline.Prefetch.none spec0 c (V m c) : sProp 𝕄) ⊢ _
    rw [Pipeline.unscopedRestP_none, unscopedRest0_eq]
    iintro H
    isplitr; · iempintro
    iexact H
  case hin =>
    intro c
    show iprop(emp ∗ _ ∗ (Pipeline.scopedRest (Ix := Unit) (Name := ℕ) (U := UR sig nD τ) (Lvl := ℕ) (Val := Elt F) spec0 c : sProp 𝕄)) ⊢ (Pipeline.scopedRest (Ix := Unit) (Name := ℕ) (U := UR sig nD τ) (Lvl := ℕ) (Val := Elt F) spec0 c : sProp 𝕄)
    iintro ⟨-, -, H⟩
    iexact H
  case hout =>
    intro c
    show (Pipeline.scopedRest (Ix := Unit) (Name := ℕ) (U := UR sig nD τ) (Lvl := ℕ) (Val := Elt F) spec0 c : sProp 𝕄) ⊢ iprop(emp ∗ (Pipeline.scopedRest (Ix := Unit) (Name := ℕ) (U := UR sig nD τ) (Lvl := ℕ) (Val := Elt F) spec0 c : sProp 𝕄))
    iintro H
    isplitr; · iempintro
    iexact H
  case hY =>
    intro c s'
    iintro ⟨-, HZ, HSI⟩
    imodintro
    icombine HSI HZ gives %h
    isplitr
    · ipureintro; exact Buf.eq_of_forall_mem_univ h
    · iexact HSI
  case htail =>
    intro c Q'
    have key := Pipeline.wp_seqs_then (Ix := Unit) (Name := ℕ) (U := UR sig nD τ) (Lvl := ℕ)
      (fun q => (cfgs q).toPCfg (Val := Elt F)) defs₀ Variants.none c tailSet [] (K := Q') [hostOps1] tail_sub tail_fresh (exitVal m c)
    rw [held_tail, held_tail, after_tail_ne _ main_v0_0 (by decide), after_tail_ne _ main_v0_1 (by decide), after_tail_target,
      exitVal_3, exitVal_4, exitVal_target] at key
    show iprop((iprop((dats m 0 c).arrays ((dats m 0 c).arrAt · cfg0.N) ∗ _) -∗ Q' ⟨⟩)
        ∗ _ ∗ (dats m 0 c).arrays ((dats m 0 c).arrAt · cfg0.N) ∗ _) ⊢ _
    rw [arrays_open]
    iintro ⟨Hk, Hb, ⟨H0, H1, H2, H3, H4⟩, HZ⟩
    iapply key $$ [Hb H3 H4 HZ]
    · isplitl [Hb]; · iexact Hb
      isplitl [H3]; · iexact H3
      isplitl [H4]; · iexact H4
      iexact HZ
    iintro ⟨Hb, H3, H4, HZ⟩
    rw [Pipeline.chain_nil, wp_pure]
    imodintro
    iapply Hk
    isplitr [HZ]
    · isplitl [H0]; · iexact H0
      isplitl [H1]; · iexact H1
      isplitl [H2]; · iexact H2
      isplitl [H3]; · iexact H3
      iexact H4
    · iexact HZ

/-- The argument arrays end unchanged: an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 0).trans (((dats m 0 c).arrAt_in 0 rfl _).trans ((A_eq m c 0).trans (V_main_arg0 m c))),
       ((h c).1 2).trans (((dats m 0 c).arrAt_in 2 rfl _).trans ((A_eq m c 2).trans (V_main_arg1 m c)))⟩)
    (run_region m ρ)

end Cert.Kernel.Region

end
-- ==== Proof.IdealBody.lean ====
/-
  The kernel region, point by point.

  The grid has four points. At point t the region stages three input blocks — rows [512 t, 512 t + 512) of the
  4096 × 4096 matrix (first window), rows [512 (t + 4), 512 (t + 4) + 512) of the SAME matrix (second window) and the
  whole 4096 × 64 matrix (third window) — and two 512 × 64 output blocks, rows [512 t, 512 t + 512) of each of the two
  2048 × 64 results. The body multiplies each row block by the whole right factor, starting from a zero accumulator,
  and stores each product over its whole output block.

  This module states what the body leaves in each output block as a function of the input blocks (the one store
  covers the block), proves the body's triple, and fixes the data of the region: the two windows on the one matrix
  hold it at the two halves of the full share, each input block is left as found, each output block is the product.
-/
import proofs.«157497_g85925115724063_cont_9to1c4b_375_28_alg».proof.Proof.Gen.KernelIdeal.Launch
import proofs.«157497_g85925115724063_cont_9to1c4b_375_28_alg».proof.Proof.Gen.KernelIdeal.Skeleton
import proofs.«157497_g85925115724063_cont_9to1c4b_375_28_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Nothing runs before the region: every buffer is as launched. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched its block index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole block -/

abbrev rL : Rect S512x4096 := Rect.unit (s := S512x4096) ![0, 0] S512x4096.size Facts₀.inb_S512x4096_S512x4096_0_0
abbrev rR : Rect S4096x64 := Rect.unit (s := S4096x64) ![0, 0] S4096x64.size Facts₀.inb_S4096x64_S4096x64_0_0
abbrev rO : Rect S512x64 := Rect.unit (s := S512x64) ![0, 0] S512x64.size Facts₀.inb_S512x64_S512x64_0_0

/-- The first output block after the body: the product of the first row block with the right factor. -/
def outA (x0 : Vec F S512x4096 .f32) (x2 : Vec F S4096x64 .f32) : Vec F S512x64 .f32 :=
  View.canon [⟨rO, k0_pay1 (View.ld x0 rL) (View.ld x2 rR)⟩]

/-- The second output block after the body: the product of the second row block with the right factor. -/
def outB (x1 : Vec F S512x4096 .f32) (x2 : Vec F S4096x64 .f32) : Vec F S512x64 .f32 :=
  View.canon [⟨rO, k0_pay2 (View.ld x1 rL) (View.ld x2 rR)⟩]

/-- The one store covers the block. -/
theorem coverO (p0 : Vec F S512x64 .f32) (y : S512x64.Idx) :
    ∃ pc ∈ ([⟨rO, p0⟩] : List (View.Piece (Elt F) S512x64 .f32)), y ∈ pc.1.set :=
  View.cover_of_tiled [⟨rO, p0⟩] S512x64.size (by rfl) y

/-! ## The body's triple -/

set_option maxHeartbeats 1000000 in
/-- On whole staging buffers, the inputs at `x0 x1 x2` and the outputs at anything, the body runs to the inputs as
    they were and the outputs at the two products. -/
theorem sound_kernel (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S4096x64 .f32) (harg3 : arg3.IsWhole) (arg4 : Memref sig .tc .vmem S512x64 .f32) (harg4 : arg4.IsWhole)
    (arg5 : Memref sig .tc .vmem S512x64 .f32) (harg5 : arg5.IsWhole)
    (x0 : Vec F S512x4096 .f32) (x1 : Vec F S512x4096 .f32) (x2 : Vec F S4096x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outA x0 x2) ∗ owns (c : Thread nD τ) arg5 fullShare (outB x1 x2)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

end Cert.KernelIdeal.Region

end
-- ==== Proof.IdealData.lean ====
/-
  The data of the region and the body's obligation at every grid point.

  The matrix handed to the first two windows is one array: the first window holds it at the left half of the full
  share and the second at the right half, so that both may read it and neither may write it; the right factor and
  the two results are held outright. After the body at point t each input's staging buffer holds the block it was
  handed and each output's holds the product of its row block with the right factor. Between points the region
  keeps only the scoped buffers no window stages (there are none here).
-/
import proofs.«157497_g85925115724063_cont_9to1c4b_375_28_alg».proof.Proof.IdealBody

set_option maxRecDepth 16384

noncomputable section

namespace Cert.KernelIdeal.Region

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outA (iblk m c 0 t) (iblk m c 2 t)
    | ⟨4, _⟩ => outB (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outA (iblk m c 0 t) (iblk m c 2 t) := by dsimp only [dats]
theorem after4 (c : Dev nD) (t : Fin cfg0.N) : (dats m 0 c).after 4 t = outB (iblk m c 1 t) (iblk m c 2 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the inputs' buffers hold their blocks, so the body's triple applies; what the region keeps
    between points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The program around the region: the region, then the concatenation of the two results -/

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

end Cert.KernelIdeal.Region

end
-- ==== Proof.IdealLaunch.lean ====
/-
  The run of the whole program at any float instance: the region, then the concatenation of its two results.

  At entry the matrix both row windows read is split along the share, half to each; the right factor and the two
  results go to their windows whole; the concatenation's target bypasses the region. At exit every window's array
  holds what the write-backs made of it, and the one host operation after the region reads the two results and
  writes their concatenation along the rows into the target. The final state is read window by window and at the
  target.
-/
import proofs.«157497_g85925115724063_cont_9to1c4b_375_28_alg».proof.Proof.IdealData

set_option maxRecDepth 16384

noncomputable section

namespace Cert.KernelIdeal.Region

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP scopedRest)

/-- The concatenation of the two results along the rows. -/
def cat (a b : (⟨S2048x64, .f32⟩ : BufTy).Contents (Elt F)) : (⟨S4096x64, .f32⟩ : BufTy).Contents (Elt F) :=
  concatenate S4096x64 0 [⟨S2048x64, a⟩, ⟨S2048x64, b⟩] Facts₀.concatenates_S2048x64_S2048x64_S4096x64_d0

/-! ## The windows' arrays, one by one -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- A window's array is a whole buffer: held over all its elements, at the window's share. -/
theorem arr_pt (c : Dev nD) (w : Fin cfg0.W) (q : PosShare TreeShare) (hq : (dats m 0 c).share w = q)
    (f : Buf (Elt F) ((cfg0.win w).arr.view.loc (c.tc : Thread nD τ))) :
    (((cfg0.win w).arr.view.loc (c.tc : Thread nD τ)) ↦[(cfg0.win w).arr.view.set]{(dats m 0 c).share w} f : sProp 𝕄)
      = (((c.tc : Thread nD τ).loc (Pipeline.arrRef spec0 w)) ↦{q} f) := by
  rw [hq]
  show ((((spec0 w).arr.view.loc (c.tc : Thread nD τ)) ↦[(spec0 w).arr.view.set]{q} f : sProp 𝕄)) = _
  rw [(arr_whole0 w).set_eq_univ]

/-- The five windows' arrays: the matrix twice, at the two halves of the full share; the right factor and the two
    results at the full share. -/
theorem arrays_open (c : Dev nD) (Fn : (w : Fin cfg0.W) → Buf (Elt F) ((cfg0.win w).arr.view.loc (c.tc : Thread nD τ))) :
    ((dats m 0 c).arrays Fn : sProp 𝕄) = iprop(
      (((c.tc : Thread nD τ).loc main_arg0) ↦{fullShare.left} Fn 0) ∗ (((c.tc : Thread nD τ).loc main_arg0) ↦{fullShare.right} Fn 1)
      ∗ (((c.tc : Thread nD τ).loc main_arg1) ↦{fullShare} Fn 2) ∗ (((c.tc : Thread nD τ).loc main_v0_0) ↦{fullShare} Fn 3)
      ∗ (((c.tc : Thread nD τ).loc main_v0_1) ↦{fullShare} Fn 4)) := by
  unfold Dat.arrays
  rw [bigSep_W0]
  beta_reduce
  rw [arr_pt m c 0 _ (share0 m c), arr_pt m c 1 _ (share1 m c), arr_pt m c 2 _ (share2 m c), arr_pt m c 3 _ (share3 m c), arr_pt m c 4 _ (share4 m c)]

/-! ## Entry: the four distinct buffers behind the five windows -/

theorem entry_split (c : Dev nD) :
    (arrBufs spec0 c (V m c) : sProp 𝕄) ⊢ (dats m 0 c).arrays ((dats m 0 c).arrAt · 0) := by
  have e : (arrBufs spec0 c (V m c) : sProp 𝕄) = iprop((((c.tc : Thread nD τ).loc main_arg0) ↦{fullShare} V m c main_arg0)
      ∗ (((c.tc : Thread nD τ).loc main_arg1) ↦{fullShare} V m c main_arg1) ∗ (((c.tc : Thread nD τ).loc main_v0_0) ↦{fullShare} V m c main_v0_0)
      ∗ (((c.tc : Thread nD τ).loc main_v0_1) ↦{fullShare} V m c main_v0_1)) := by
    unfold Pipeline.arrBufs
    exact bigSep_eq_bigSepL_of_eq [main_arg0, main_arg1, main_v0_0, main_v0_1] (by decide) (by decide) _
  rw [arrays_open, e]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-! ## Exit: the concatenation of the two results -/

/-- The three buffers the concatenation touches. -/
abbrev tailSet : Finset (DevRef τ sig) := {Proc.devRef .tc main_v0_0, Proc.devRef .tc main_v0_1, Proc.devRef .tc main_v1}

theorem held_tail (c : Dev nD) (Wv : Valuation τ sig (Elt F)) :
    (StableHlo.held (c.tc : Thread nD τ) tailSet Wv : sProp 𝕄)
      = iprop((((c.tc : Thread nD τ).loc main_v0_0) ↦{fullShare} Wv (Proc.devRef .tc main_v0_0))
          ∗ (((c.tc : Thread nD τ).loc main_v0_1) ↦{fullShare} Wv (Proc.devRef .tc main_v0_1))
          ∗ (((c.tc : Thread nD τ).loc main_v1) ↦{fullShare} Wv (Proc.devRef .tc main_v1))) := by
  unfold StableHlo.held tailSet
  rw [bigSep_insert (by decide), bigSep_insert (by decide), bigSep_singleton]
  rfl

/-- Every buffer at the region's exit: the windows' arrays after the write-backs, the rest as launched. -/
def exitVal (c : Dev nD) : Valuation τ sig (Elt F) :=
  Pipeline.withArrays spec0 c (V0 m c) fun w => (dats m 0 c).arrAt w cfg0.N

theorem exitVal_out (c : Dev nD) (w : Fin 5) (b : Ref sig .tc) (hb : Pipeline.arrRef spec0 w = b)
    (huniq : ∀ w' : Fin 5, Pipeline.arrRef spec0 w' = b → w' = w) :
    exitVal m c (Proc.devRef .tc (Pipeline.arrRef spec0 w)) = (dats m 0 c).arrAt w cfg0.N := by
  unfold exitVal Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 5) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  obtain rfl : w' = w := huniq w' ((Proc.devRef_injective _ e).trans hb)
  rfl

theorem exitVal_3 (c : Dev nD) : exitVal m c (Proc.devRef .tc main_v0_0) = (dats m 0 c).arrAt 3 cfg0.N :=
  exitVal_out m c 3 main_v0_0 rfl (by decide)
theorem exitVal_4 (c : Dev nD) : exitVal m c (Proc.devRef .tc main_v0_1) = (dats m 0 c).arrAt 4 cfg0.N :=
  exitVal_out m c 4 main_v0_1 rfl (by decide)
theorem exitVal_target (c : Dev nD) : exitVal m c (Proc.devRef .tc main_v1) = V m c main_v1 :=
  Pipeline.withArrays_of_ne _ c (V0 m c) _ main_v1 (by decide)

theorem after_tail_ne (Wv : Valuation τ sig (Elt F)) (r : Ref sig .tc) (h : r ≠ main_v1) :
    StableHlo.after ([hostOps1 (F := F)].flatten) Wv (Proc.devRef .tc r) = Wv (Proc.devRef .tc r) := by
  simp only [List.flatten_cons, List.flatten_nil, List.append_nil, hostOps1, StableHlo.after_cons, StableHlo.after_nil]
  exact StableHlo.binary_result_ne' _ _ _ _ Wv h

theorem after_tail_target (Wv : Valuation τ sig (Elt F)) :
    StableHlo.after ([hostOps1 (F := F)].flatten) Wv (Proc.devRef .tc main_v1)
      = cat (Wv (Proc.devRef .tc main_v0_0)) (Wv (Proc.devRef .tc main_v0_1)) := by
  simp only [List.flatten_cons, List.flatten_nil, List.append_nil, hostOps1, StableHlo.after_cons, StableHlo.after_nil]
  exact StableHlo.binary_result' _ _ _ _ Wv

theorem tail_sub : ∀ ops ∈ ([hostOps1] : List (List (HloOp τ sig (Elt F)))), ∀ op ∈ ops, op.bufs ⊆ tailSet := by
  intro ops hops op hop
  simp only [List.mem_singleton] at hops; subst hops
  simp only [hostOps1, List.mem_singleton] at hop; subst hop
  exact Finset.Subset.refl _

theorem tail_fresh : ∀ ops ∈ ([hostOps1] : List (List (HloOp τ sig (Elt F)))), ∀ op ∈ ops, op.fresh = ∅ := by
  intro ops hops op hop
  simp only [List.mem_singleton] at hops; subst hops
  simp only [hostOps1, List.mem_singleton] at hop; subst hop
  rfl

/-! ## The run -/

set_option backward.isDefEq.respectTransparency.types false in
/-- From any memory with zero counters every weakly fair execution terminates; at the end every window's array
    holds what the write-backs made of it and the target holds the concatenation of the two results. -/
theorem run_region :
    θ_run defs (onTc (τ := τ) (main (F := F))) (s₀ m ρ) (fun r => ∀ c : Dev nD,
      (∀ w, r.2.mem (((cfgs 0).spec w).arr.view.loc (c.tc : Thread nD τ)) = (dats m 0 c).arrAt w cfg0.N)
      ∧ r.2.mem ((c.tc : Thread nD τ).loc main_v1) = cat ((dats m 0 c).arrAt 3 cfg0.N) ((dats m 0 c).arrAt 4 cfg0.N)) := by
  refine Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj))
    (hu₀ := .rfl)
    (V := V m) (hmain := hmain m Variants.none)
    (hsplit := entry_split m)
    (hpf := fun _ k => k.elim0)
    (X := fun _ => iprop(emp)) (Y := fun _ => iprop(emp))
    (Z := fun c => iprop(((c.tc : Thread nD τ).loc main_v1) ↦{fullShare} V m c main_v1))
    (Z' := fun c => iprop(((c.tc : Thread nD τ).loc main_v1) ↦{fullShare} cat ((dats m 0 c).arrAt 3 cfg0.N) ((dats m 0 c).arrAt 4 cfg0.N)))
    (hX := ?hX) (hin := ?hin) (hout := ?hout) (htail := ?htail)
    (QY := fun c s => s.mem ((c.tc : Thread nD τ).loc main_v1) = cat ((dats m 0 c).arrAt 3 cfg0.N) ((dats m 0 c).arrAt 4 cfg0.N))
    (hY := ?hY)
    (hQ := fun s h c => ⟨(h c).1, (h c).2.2⟩)
  case hX =>
    intro c
    show (unscopedRestP Pipeline.Prefetch.none spec0 c (V m c) : sProp 𝕄) ⊢ _
    rw [Pipeline.unscopedRestP_none, unscopedRest0_eq]
    iintro H
    isplitr; · iempintro
    iexact H
  case hin =>
    intro c
    show iprop(emp ∗ _ ∗ (Pipeline.scopedRest (Ix := Unit) (Name := ℕ) (U := UR sig nD τ) (Lvl := ℕ) (Val := Elt F) spec0 c : sProp 𝕄)) ⊢ (Pipeline.scopedRest (Ix := Unit) (Name := ℕ) (U := UR sig nD τ) (Lvl := ℕ) (Val := Elt F) spec0 c : sProp 𝕄)
    iintro ⟨-, -, H⟩
    iexact H
  case hout =>
    intro c
    show (Pipeline.scopedRest (Ix := Unit) (Name := ℕ) (U := UR sig nD τ) (Lvl := ℕ) (Val := Elt F) spec0 c : sProp 𝕄) ⊢ iprop(emp ∗ (Pipeline.scopedRest (Ix := Unit) (Name := ℕ) (U := UR sig nD τ) (Lvl := ℕ) (Val := Elt F) spec0 c : sProp 𝕄))
    iintro H
    isplitr; · iempintro
    iexact H
  case hY =>
    intro c s'
    iintro ⟨-, HZ, HSI⟩
    imodintro
    icombine HSI HZ gives %h
    isplitr
    · ipureintro; exact Buf.eq_of_forall_mem_univ h
    · iexact HSI
  case htail =>
    intro c Q'
    have key := Pipeline.wp_seqs_then (Ix := Unit) (Name := ℕ) (U := UR sig nD τ) (Lvl := ℕ)
      (fun q => (cfgs q).toPCfg (Val := Elt F)) defs₀ Variants.none c tailSet [] (K := Q') [hostOps1] tail_sub tail_fresh (exitVal m c)
    rw [held_tail, held_tail, after_tail_ne _ main_v0_0 (by decide), after_tail_ne _ main_v0_1 (by decide), after_tail_target,
      exitVal_3, exitVal_4, exitVal_target] at key
    show iprop((iprop((dats m 0 c).arrays ((dats m 0 c).arrAt · cfg0.N) ∗ _) -∗ Q' ⟨⟩)
        ∗ _ ∗ (dats m 0 c).arrays ((dats m 0 c).arrAt · cfg0.N) ∗ _) ⊢ _
    rw [arrays_open]
    iintro ⟨Hk, Hb, ⟨H0, H1, H2, H3, H4⟩, HZ⟩
    iapply key $$ [Hb H3 H4 HZ]
    · isplitl [Hb]; · iexact Hb
      isplitl [H3]; · iexact H3
      isplitl [H4]; · iexact H4
      iexact HZ
    iintro ⟨Hb, H3, H4, HZ⟩
    rw [Pipeline.chain_nil, wp_pure]
    imodintro
    iapply Hk
    isplitr [HZ]
    · isplitl [H0]; · iexact H0
      isplitl [H1]; · iexact H1
      isplitl [H2]; · iexact H2
      isplitl [H3]; · iexact H3
      iexact H4
    · iexact HZ

/-- The argument arrays end unchanged: an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 0).trans (((dats m 0 c).arrAt_in 0 rfl _).trans ((A_eq m c 0).trans (V_main_arg0 m c))),
       ((h c).1 2).trans (((dats m 0 c).arrAt_in 2 rfl _).trans ((A_eq m c 2).trans (V_main_arg1 m c)))⟩)
    (run_region m ρ)

end Cert.KernelIdeal.Region

end
-- ==== Proof.IdealValue.lean ====
/-
  The value of the kernel at the ideal instance.

  Each output block at point t is the product of a 512 × 4096 row block with the whole 4096 × 64 right factor into a
  zero accumulator: entry (p, c) is the sum over k of block[p, k] · right[k, c]. The first window's block at point t is
  rows 512 t + p of the matrix and the second's rows 512 (t + 4) + p = 2048 + 512 t + p, so the two results are the
  products of the top and the bottom 2048 rows with the right factor; the four points' blocks tile each result.
-/
import proofs.«157497_g85925115724063_cont_9to1c4b_375_28_alg».proof.Proof.IdealLaunch
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen
open Cert.KernelIdeal.Facts₀ Cert.KernelIdeal.Facts
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-! ## The specification -/

/-- Entry (r, k) of the left matrix and entry (k, c) of the right one. -/
abbrev atL (r : Fin 4096) (k : Fin 4096) : S4096x4096.Idx := fun a => match a with
  | ⟨0, _⟩ => ⟨r.val, r.isLt⟩
  | ⟨1, _⟩ => ⟨k.val, k.isLt⟩
abbrev atR (k : Fin 4096) (c : Fin 64) : S4096x64.Idx := fun a => match a with
  | ⟨0, _⟩ => ⟨k.val, k.isLt⟩
  | ⟨1, _⟩ => ⟨c.val, c.isLt⟩

/-- The product of the 2048 rows of the left matrix from row `off` on with the right matrix: entry (r, c) is the
    sum over k of left[off + r, k] · right[k, c]. -/
def prodRows (off : Nat) (hoff : off + 2048 ≤ 4096) (A0 : S4096x4096.Idx → EReal) (A1 : S4096x64.Idx → EReal) : S2048x64.Idx → EReal :=
  fun i => ∑ k : Fin 4096, A0 (atL ⟨(i 0).val + off, by have h : (i 0).val < 2048 := (i 0).isLt; omega⟩ k) * A1 (atR k ⟨(i 1).val, (i 1).isLt⟩)

/-! ## One block product, entry by entry -/

abbrev blkL (j : S512x64.Idx) (k : Fin 4096) : S512x4096.Idx := fun a => match a with
  | ⟨0, _⟩ => ⟨(j 0).val, (j 0).isLt⟩
  | ⟨1, _⟩ => ⟨k.val, k.isLt⟩
abbrev blkR (j : S512x64.Idx) (k : Fin 4096) : S4096x64.Idx := fun a => match a with
  | ⟨0, _⟩ => ⟨k.val, k.isLt⟩
  | ⟨1, _⟩ => ⟨(j 1).val, (j 1).isLt⟩

theorem lhs_row (i : S512x64.Idx) (q : dot_S512x4096_S4096x64_S512x64_1_0_0_1_n_n.contr.Idx) : (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_col (i : S512x64.Idx) (q : dot_S512x4096_S4096x64_S512x64_1_0_0_1_n_n.contr.Idx) : (dot_S512x4096_S4096x64_S512x64_1_0_0_1_n_n.lhsIdx i q 1).val = (q ⟨0, by decide⟩).val :=
  dot_S512x4096_S4096x64_S512x64_1_0_0_1_n_n.lhsIdx_val_of_single rfl i q
theorem rhs_row (i : S512x64.Idx) (q : dot_S512x4096_S4096x64_S512x64_1_0_0_1_n_n.contr.Idx) : (dot_S512x4096_S4096x64_S512x64_1_0_0_1_n_n.rhsIdx i q 0).val = (q ⟨0, by decide⟩).val :=
  dot_S512x4096_S4096x64_S512x64_1_0_0_1_n_n.rhsIdx_val_of_single rfl i q
theorem rhs_col (i : S512x64.Idx) (q : dot_S512x4096_S4096x64_S512x64_1_0_0_1_n_n.contr.Idx) : (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The matrix product into the zero accumulator, at an entry: the sum over the contracted axis. -/
theorem matmul_block_apply (x0 : FVec Ideal S512x4096 .f32) (x2 : FVec Ideal S4096x64 .f32) (j : S512x64.Idx) :
    matmul (F := Ideal) dot_S512x4096_S4096x64_S512x64_1_0_0_1_n_n none x0 x2 (constant (F := Ideal) S512x64 .f32 0x00000000#32) j
      = ∑ k : Fin 4096, x0 (blkL j k) * x2 (blkR j k) := by
  simp only [matmul]
  rw [Ideal.matmul_constant_zero_apply, ← Equiv.sum_comp (ValueIdx.contrEquiv1 dot_S512x4096_S4096x64_S512x64_1_0_0_1_n_n 4096 rfl rfl).symm]
  refine Finset.sum_congr rfl fun k _ => ?_
  have hk := ValueIdx.contrEquiv1_symm_val dot_S512x4096_S4096x64_S512x64_1_0_0_1_n_n 4096 rfl rfl k
  have el : dot_S512x4096_S4096x64_S512x64_1_0_0_1_n_n.lhsIdx j ((ValueIdx.contrEquiv1 dot_S512x4096_S4096x64_S512x64_1_0_0_1_n_n 4096 rfl rfl).symm k) = blkL j k := funext fun a => Fin.ext (by
    match a with
    | ⟨0, _⟩ => exact lhs_row _ _
    | ⟨1, _⟩ => exact (lhs_col _ _).trans hk)
  have er : dot_S512x4096_S4096x64_S512x64_1_0_0_1_n_n.rhsIdx j ((ValueIdx.contrEquiv1 dot_S512x4096_S4096x64_S512x64_1_0_0_1_n_n 4096 rfl rfl).symm k) = blkR j k := funext fun a => Fin.ext (by
    match a with
    | ⟨0, _⟩ => exact (rhs_row _ _).trans hk
    | ⟨1, _⟩ => exact rhs_col _ _)
  rw [el, er]

theorem pay1_apply (x0 : Vec Ideal S512x4096 .f32) (x2 : Vec Ideal S4096x64 .f32) (j : S512x64.Idx) :
    k0_pay1 (F := Ideal) x0 x2 j = ∑ k : Fin 4096, x0 (blkL j k) * x2 (blkR j k) := by
  unfold k0_pay1
  exact matmul_block_apply x0 x2 j

theorem pay2_apply (x0 : Vec Ideal S512x4096 .f32) (x2 : Vec Ideal S4096x64 .f32) (j : S512x64.Idx) :
    k0_pay2 (F := Ideal) x0 x2 j = ∑ k : Fin 4096, x0 (blkL j k) * x2 (blkR j k) := by
  unfold k0_pay2
  exact matmul_block_apply x0 x2 j

/-! ## From the blocks to the arrays -/

theorem hz : (![0, 0] : Fin 2 → Nat) = fun _ => 0 := funext fun a => by fin_cases a <;> rfl

/-- The block indices over the grid: the first row window moves with the first result, the second with the second
    result four blocks further down; the right factor's one block never moves; every block sits in column block 0. -/
theorem idx_facts : ∀ t : Fin cfg0.N,
    win0_0.index t (0 : Fin 2) = win0_3.index t (0 : Fin 2) ∧ win0_0.index t (1 : Fin 2) = 0
    ∧ win0_1.index t (0 : Fin 2) = win0_4.index t (0 : Fin 2) + 4 ∧ win0_1.index t (1 : Fin 2) = 0
    ∧ win0_2.index t (0 : Fin 2) = 0 ∧ win0_2.index t (1 : Fin 2) = 0
    ∧ win0_3.index t (0 : Fin 2) ≤ 3 ∧ win0_3.index t (1 : Fin 2) = 0
    ∧ win0_4.index t (0 : Fin 2) ≤ 3 ∧ win0_4.index t (1 : Fin 2) = 0 :=
  (by decide +kernel : ∀ t : Fin grid0.N, _)

theorem idx_onto3 : ∀ q : Fin 4, ∃ t : Fin cfg0.N, win0_3.index t = ![q.val, 0] :=
  (by decide +kernel : ∀ q : Fin 4, ∃ t : Fin grid0.N, win0_3.index t = ![q.val, 0])
theorem idx_onto4 : ∀ q : Fin 4, ∃ t : Fin cfg0.N, win0_4.index t = ![q.val, 0] :=
  (by decide +kernel : ∀ q : Fin 4, ∃ t : Fin grid0.N, win0_4.index t = ![q.val, 0])

/-- What point `t` writes back into the first result is block `t` of the product of the top rows. -/
theorem flushed3_eq (c : Dev nD) (t : Fin cfg0.N) :
    (dats m 0 c).flushed 3 t = ((cfg0.win 3).blk t).view.read (Elt Ideal) (prodRows 0 (by omega) (V m c main_arg0) (V m c main_arg1)) := by
  show (cfg0.win 3).cut (grid0.coords t) ((dats m 0 c).after 3 t) = _
  rw [after3]
  unfold outA
  rw [View.canon_unit_zero hz]
  simp only [View.ld_unit_zero (S := S512x4096) hz, View.ld_unit_zero (S := S4096x64) hz]
  obtain ⟨e0, e1, e2, e3, e4, e5, e6, e7, e8, e9⟩ := idx_facts t
  funext j
  refine (pay1_apply _ _ j).trans ?_
  have hr : ((cfg0.win 3).blk t).view.read (Elt Ideal) (prodRows 0 (by omega) (V m c main_arg0) (V m c main_arg1)) j
      = prodRows 0 (by omega) (V m c main_arg0) (V m c main_arg1) (((cfg0.win 3).blk t).view.emb j) := rfl
  rw [hr]
  unfold prodRows
  refine Finset.sum_congr rfl fun k _ => ?_
  refine congrArg₂ (· * ·) ?_ ?_
  · show V m c main_arg0 (((cfg0.win 0).blk t).view.emb (blkL j k)) = _
    refine congrArg (V m c main_arg0) (funext fun a => Fin.ext ?_)
    match a with
    | ⟨0, _⟩ => show win0_0.index t (0 : Fin 2) * 512 + 1 * (j 0).val = (win0_3.index t (0 : Fin 2) * 512 + 1 * (j 0).val) + 0; omega
    | ⟨1, _⟩ => show win0_0.index t (1 : Fin 2) * 4096 + 1 * k.val = k.val; omega
  · show V m c main_arg1 (((cfg0.win 2).blk t).view.emb (blkR j k)) = _
    refine congrArg (V m c main_arg1) (funext fun a => Fin.ext ?_)
    match a with
    | ⟨0, _⟩ => show win0_2.index t (0 : Fin 2) * 4096 + 1 * k.val = k.val; omega
    | ⟨1, _⟩ => show win0_2.index t (1 : Fin 2) * 64 + 1 * (j 1).val = win0_3.index t (1 : Fin 2) * 64 + 1 * (j 1).val; omega

/-- An index of result one lies in point `t`'s block iff each coordinate lies in the block's range. -/
theorem mem_blk3 (t : Fin cfg0.N) (i : S2048x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v0_0).slice (win0_3.rect t)).set ↔ _
  rw [View.set_slice_whole, Rect.mem_set_unit]
  exact Iff.rfl

/-- Every row belongs to the block of the point numbered by the row's quotient by 512. -/
theorem cover3 (i : S2048x64.Idx) : ∃ t : Fin cfg0.N, (cfg0.win 3).flush t = true ∧ i ∈ ((cfg0.win 3).blk t).view.set := by
  have hi0 : (i 0).val < 2048 := (i 0).isLt
  have hi1 : (i 1).val < 64 := (i 1).isLt
  obtain ⟨t, ht⟩ := idx_onto3 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 64 ≤ (i 1).val ∧ (i 1).val < win0_3.index t (1 : Fin 2) * 64 + 64; omega

theorem final3 (c : Dev nD) : (dats m 0 c).arrAt 3 cfg0.N = prodRows 0 (by omega) (V m c main_arg0) (V m c main_arg1) :=
  (dats m 0 c).arrAt_eq_of_cover 3 _ (fun t _ => flushed3_eq m c t) cover3

/-- What point `t` writes back into the second result is block `t` of the product of the bottom rows. -/
theorem flushed4_eq (c : Dev nD) (t : Fin cfg0.N) :
    (dats m 0 c).flushed 4 t = ((cfg0.win 4).blk t).view.read (Elt Ideal) (prodRows 2048 (by omega) (V m c main_arg0) (V m c main_arg1)) := by
  show (cfg0.win 4).cut (grid0.coords t) ((dats m 0 c).after 4 t) = _
  rw [after4]
  unfold outB
  rw [View.canon_unit_zero hz]
  simp only [View.ld_unit_zero (S := S512x4096) hz, View.ld_unit_zero (S := S4096x64) hz]
  obtain ⟨e0, e1, e2, e3, e4, e5, e6, e7, e8, e9⟩ := idx_facts t
  funext j
  refine (pay2_apply _ _ j).trans ?_
  have hr : ((cfg0.win 4).blk t).view.read (Elt Ideal) (prodRows 2048 (by omega) (V m c main_arg0) (V m c main_arg1)) j
      = prodRows 2048 (by omega) (V m c main_arg0) (V m c main_arg1) (((cfg0.win 4).blk t).view.emb j) := rfl
  rw [hr]
  unfold prodRows
  refine Finset.sum_congr rfl fun k _ => ?_
  refine congrArg₂ (· * ·) ?_ ?_
  · show V m c main_arg0 (((cfg0.win 1).blk t).view.emb (blkL j k)) = _
    refine congrArg (V m c main_arg0) (funext fun a => Fin.ext ?_)
    match a with
    | ⟨0, _⟩ => show win0_1.index t (0 : Fin 2) * 512 + 1 * (j 0).val = (win0_4.index t (0 : Fin 2) * 512 + 1 * (j 0).val) + 2048; omega
    | ⟨1, _⟩ => show win0_1.index t (1 : Fin 2) * 4096 + 1 * k.val = k.val; omega
  · show V m c main_arg1 (((cfg0.win 2).blk t).view.emb (blkR j k)) = _
    refine congrArg (V m c main_arg1) (funext fun a => Fin.ext ?_)
    match a with
    | ⟨0, _⟩ => show win0_2.index t (0 : Fin 2) * 4096 + 1 * k.val = k.val; omega
    | ⟨1, _⟩ => show win0_2.index t (1 : Fin 2) * 64 + 1 * (j 1).val = win0_4.index t (1 : Fin 2) * 64 + 1 * (j 1).val; omega

/-- An index of result two lies in point `t`'s block iff each coordinate lies in the block's range. -/
theorem mem_blk4 (t : Fin cfg0.N) (i : S2048x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v0_1).slice (win0_4.rect t)).set ↔ _
  rw [View.set_slice_whole, Rect.mem_set_unit]
  exact Iff.rfl

/-- Every row belongs to the block of the point numbered by the row's quotient by 512. -/
theorem cover4 (i : S2048x64.Idx) : ∃ t : Fin cfg0.N, (cfg0.win 4).flush t = true ∧ i ∈ ((cfg0.win 4).blk t).view.set := by
  have hi0 : (i 0).val < 2048 := (i 0).isLt
  have hi1 : (i 1).val < 64 := (i 1).isLt
  obtain ⟨t, ht⟩ := idx_onto4 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 64 ≤ (i 1).val ∧ (i 1).val < win0_4.index t (1 : Fin 2) * 64 + 64; omega

theorem final4 (c : Dev nD) : (dats m 0 c).arrAt 4 cfg0.N = prodRows 2048 (by omega) (V m c main_arg0) (V m c main_arg1) :=
  (dats m 0 c).arrAt_eq_of_cover 4 _ (fun t _ => flushed4_eq m c t) cover4

end Cert.KernelIdeal.Region

end
-- ==== Proof.IdealBridge.lean ====
/-
  The two programs compute one function.

  The kernel's result is the concatenation along the rows of the products of the top and the bottom 2048 rows of the
  left matrix with the right matrix; the reference's is the product of the whole left matrix with the right matrix.
  At entry (r, c) both are the sum over k of left[r, k] · right[k, c]: for r < 2048 the concatenation reads the first
  piece at row r, otherwise the second at row r - 2048, which is row 2048 + (r - 2048) = r of the left matrix. The two
  sums have the same terms in the same order, so no law of the extended reals is used and the inputs' finiteness is
  never opened.
-/
import proofs.«157497_g85925115724063_cont_9to1c4b_375_28_alg».proof.Proof.IdealValue
import proofs.«157497_g85925115724063_cont_9to1c4b_375_28_alg».proof.Proof.Gen.ReferenceIdeal.Run
import proofs.«157497_g85925115724063_cont_9to1c4b_375_28_alg».proof.Proof.Gen.ReferenceIdeal.Read

set_option maxRecDepth 16384

noncomputable section

namespace Cert.KernelIdeal.Region

open Cert.KernelIdeal Cert.KernelIdeal.Gen
open Cert.KernelIdeal.Facts₀ Cert.KernelIdeal.Facts
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The kernel's run at the ideal instance: the result is the concatenation of the two half products of the
    argument arrays, and the argument arrays end unchanged. -/
theorem run_value : θ_run defs (onTc (τ := τ) (main (F := Ideal))) ⟨m, fun _ => 0, ρ⟩ fun r => ∀ c : Dev nD,
      r.2.mem ((c.tc : Thread nD τ).loc main_v1)
        = cat (F := Ideal) (prodRows 0 (by omega) (V m c main_arg0) (V m c main_arg1)) (prodRows 2048 (by omega) (V m c main_arg0) (V m c main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨by rw [(h c).2, final3, final4],
       ((h c).1 0).trans (((dats m 0 c).arrAt_in 0 rfl _).trans ((A_eq m c 0).trans (V_main_arg0 m c))),
       ((h c).1 2).trans (((dats m 0 c).arrAt_in 2 rfl _).trans ((A_eq m c 2).trans (V_main_arg1 m c)))⟩)
    (run_region m ρ)

/-- A row of the whole result below row 2048, as a row of the first piece; -/
abbrev topIx (i : S4096x64.Idx) (h : (i 0).val < 2048) : S2048x64.Idx := fun a => match a with
  | ⟨0, _⟩ => ⟨(i 0).val, h⟩
  | ⟨1, _⟩ => ⟨(i 1).val, (i 1).isLt⟩
/-- and one from row 2048 on, as a row of the second piece. -/
abbrev botIx (i : S4096x64.Idx) (h : 2048 ≤ (i 0).val) : S2048x64.Idx := fun a => match a with
  | ⟨0, _⟩ => ⟨(i 0).val - 2048, by have h4 : (i 0).val < 4096 := (i 0).isLt; show (i 0).val - 2048 < 2048; omega⟩
  | ⟨1, _⟩ => ⟨(i 1).val, (i 1).isLt⟩

/-- The concatenation of the two half products is the whole product, entry by entry. -/
theorem cat_prodRows (A0 : S4096x4096.Idx → EReal) (A1 : S4096x64.Idx → EReal) :
    cat (F := Ideal) (prodRows 0 (by omega) A0 A1) (prodRows 2048 (by omega) A0 A1)
      = Cert.ReferenceIdeal.Read.val_main_v0 (F := Ideal) A0 A1 := by
  funext i
  rw [Cert.ReferenceIdeal.Read.val_main_v0_apply]
  have hi0 : (i 0).val < 4096 := (i 0).isLt
  unfold cat
  by_cases h : (i 0).val < 2048
  · rw [concatenate_pair_apply_left (t := S4096x64) (s₁ := S2048x64) (s₂ := S2048x64) (0 : Fin S4096x64.rank) _ _ _ i rfl (topIx i h)
      (fun b => by match b with | ⟨0, _⟩ => rfl | ⟨1, _⟩ => rfl)]
    unfold prodRows
    refine Finset.sum_congr rfl fun k _ => ?_
    refine congrArg₂ (· * ·) (congrArg A0 (funext fun a => Fin.ext ?_)) (congrArg A1 (funext fun a => Fin.ext ?_))
    · match a with
      | ⟨0, _⟩ => rfl
      | ⟨1, _⟩ => rfl
    · match a with
      | ⟨0, _⟩ => rfl
      | ⟨1, _⟩ => rfl
  · have h' : 2048 ≤ (i 0).val := Nat.le_of_not_lt h
    rw [concatenate_pair_apply_right (t := S4096x64) (s₁ := S2048x64) (s₂ := S2048x64) (0 : Fin S4096x64.rank) _ _ _ i rfl rfl (botIx i h')
      (fun b hb => by match b with | ⟨0, _⟩ => exact absurd rfl hb | ⟨1, _⟩ => rfl)
      (by show (i 0).val - 2048 + 2048 = (i 0).val; omega)]
    unfold prodRows
    refine Finset.sum_congr rfl fun k _ => ?_
    refine congrArg₂ (· * ·) (congrArg A0 (funext fun a => Fin.ext ?_)) (congrArg A1 (funext fun a => Fin.ext ?_))
    · match a with
      | ⟨0, _⟩ => show (i 0).val - 2048 + 2048 = (i 0).val; omega
      | ⟨1, _⟩ => rfl
    · match a with
      | ⟨0, _⟩ => rfl
      | ⟨1, _⟩ => rfl

end Cert.KernelIdeal.Region

end
-- ==== Proof.lean ====
/-
  The kernel multiplies a 4096 × 4096 matrix by a 4096 × 64 matrix in two streams: four grid points, each taking one
  512-row block of the top half and one of the bottom half of the left matrix (two windows on the one array) and the
  whole right matrix, and writing the two 512 × 64 products into two 2048 × 64 results, which the program then
  concatenates along the rows. The reference is the one matrix product.

  Frames: at any float instance the region runs point by point — the shared matrix held by its two windows at the two
  halves of the full share, so neither can write it — and the concatenation after it touches only the two results and
  its target; the argument arrays are never written back. The reference is a single host operation.

  Value: at the ideal instance entry (r, c) of either program is the sum over k of left[r, k] · right[k, c], the same
  terms in the same order, so the equality needs no law of the extended reals and no finiteness of the inputs. The
  ideal pass rewrote nothing, so there is nothing to preserve.
-/
import proofs.«157497_g85925115724063_cont_9to1c4b_375_28_alg».proof.Defs
import proofs.«157497_g85925115724063_cont_9to1c4b_375_28_alg».proof.Proof.Gen.Kernel
import proofs.«157497_g85925115724063_cont_9to1c4b_375_28_alg».proof.Proof.Gen.KernelIdeal
import proofs.«157497_g85925115724063_cont_9to1c4b_375_28_alg».proof.Proof.Gen.ReferenceIdeal
import proofs.«157497_g85925115724063_cont_9to1c4b_375_28_alg».proof.Proof.Gen.Pre_finite_inputs
import proofs.«157497_g85925115724063_cont_9to1c4b_375_28_alg».proof.Proof.Gen.ReferenceIdeal.Run
import proofs.«157497_g85925115724063_cont_9to1c4b_375_28_alg».proof.Proof.Gen.ReferenceIdeal.Read
import proofs.«157497_g85925115724063_cont_9to1c4b_375_28_alg».proof.Proof.BitsLaunch
import proofs.«157497_g85925115724063_cont_9to1c4b_375_28_alg».proof.Proof.IdealBridge

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Region.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Region.frame (F := Ideal) m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the two arguments both programs end with the whole product of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Region.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact (Cert.KernelIdeal.Region.cat_prodRows _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
